-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x2048 : Shape := ⟨3, ![32, 4096, 2048]⟩
abbrev S_ : Shape := ⟨0, ![]⟩

class Facts : Prop where
  bcast_S_S32x4096x2048 : S_.BroadcastsInDim S32x4096x2048 (![] : Fin 0 → Fin S32x4096x2048.rank)
  reducesTo_S32x4096x2048_S_d0_1_2 : S32x4096x2048.ReducesTo [0, 1, 2] S_
  h_S_ : 0 < S_.numel

variable [Facts]

def fn {F : FTy → Type} [FloatOps F] (main_arg0 : FVec F S32x4096x2048 .f32) : IVec S_ 1 :=
  let main_v0 : FVec F S32x4096x2048 .f32 := Host.absf main_arg0
  let main_cst : FVec F S_ .f32 := constant S_ .f32 0x7F800000#32
  let main_v1 : FVec F S32x4096x2048 .f32 := broadcastInDim S32x4096x2048 ![] bcast_S_S32x4096x2048 main_cst
  let main_v2 : IVec S32x4096x2048 1 := cmpf .olt main_v0 main_v1
  let main_c : IVec S_ 1 := constantI S_ 1 1#1
  let main_v3 : IVec S_ 1 := (fun x v => Host.reduce IntOp.andi x v reducesTo_S32x4096x2048_S_d0_1_2 h_S_) main_v2 main_c
  main_v3
-- ==== Kernel.lean ====
abbrev S32x4096x2048 : Shape := ⟨3, ![32, 4096, 2048]⟩
abbrev S131072x2048 : Shape := ⟨2, ![131072, 2048]⟩
abbrev S1024x2048 : Shape := ⟨2, ![1024, 2048]⟩

abbrev nBuf : Space → Nat
  | .hbm => 4
  | .vmem => 4
  | .smem => 0
  | _ => 0

abbrev bufTy : (tb : Table) → Fin (tcTables nBuf tb) → BufTy
  | .hbm, ⟨0, _⟩ => ⟨S32x4096x2048, .f32⟩
  | .hbm, ⟨1, _⟩ => ⟨S131072x2048, .f32⟩
  | .hbm, ⟨2, _⟩ => ⟨S131072x2048, .f32⟩
  | .hbm, ⟨3, _⟩ => ⟨S32x4096x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | _, _ => ⟨S32x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x4096x2048_S131072x2048 : S32x4096x2048.ShapeCasts S131072x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  shapeCasts_S131072x2048_S32x4096x2048 : S131072x2048.ShapeCasts S32x4096x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S131072x2048.size a
  hwx0_0 : ∀ i : grid0.Coords, EltTy.bits .f32 = 32 ∨ (Rect.block (s := S131072x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S131072x2048.size a
  hwx0_1 : ∀ i : grid0.Coords, EltTy.bits .f32 = 32 ∨ (Rect.block (s := S131072x2048) S1024x2048.size (cc0_transform_1 i) (hinb0_1 i)).WholeWords (EltTy.packing .f32)

variable [Facts₀]

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x4096x2048 : Shape := ⟨3, ![32, 4096, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S32x4096x2048, .f32⟩
  | .hbm, ⟨1, _⟩ => ⟨S_, .f32⟩
  | .hbm, ⟨2, _⟩ => ⟨S32x4096x2048, .f32⟩
  | .hbm, ⟨3, _⟩ => ⟨S32x4096x2048, .i1⟩
  | .hbm, ⟨4, _⟩ => ⟨S_, .f32⟩
  | .hbm, ⟨5, _⟩ => ⟨S32x4096x2048, .f32⟩
  | .hbm, ⟨6, _⟩ => ⟨S32x4096x2048, .f32⟩
  | .hbm, ⟨7, _⟩ => ⟨S32x4096x2048, .f32⟩
  | _, _ => ⟨S32x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S_S32x4096x2048 : S_.BroadcastsInDim S32x4096x2048 (![] : Fin 0 → Fin S32x4096x2048.rank)

variable [Facts₀]

class Facts : Prop extends Facts₀ where

variable [Facts]
-- ==== Proof.Rectifier.lean ====
/-
  The function both programs compute, element by element.

  For a number `x` the result is `x` when `x > 0` and `c · x` otherwise, where `c` is the single-precision
  constant written -1.99 (the word 0xBFFEB852). Both programs use the same two constant words (zero and `c`) and the
  same three operations (an ordered greater-than comparison, a product with the constant on the left, a selection),
  so the function is stated once, for any interpretation of the floating-point operations, and no property of the
  extended reals is used: not the value of the constant, not finiteness of the input.
-/
import Idealize.ShloMosaic.Lib.Pipeline.Value

noncomputable section

namespace Cert.Rectifier

open Idealize.ShloMosaic

variable {F : FTy → Type} [FloatOps F]

/-- `x` if `x > 0`, else `c · x` with `c` the constant word 0xBFFEB852 (-1.99 in single precision). -/
def q (x : F .f32) : F .f32 :=
  Scalar.select (FloatOps.cmpf .ogt x (Scalar.ofBits .f32 0x00000000#32)) x
    (FloatOps.mulf (Scalar.ofBits .f32 0xBFFEB852#32) x)

end Cert.Rectifier

end
-- ==== Proof.KernelBlocks.lean ====
/-
  The kernel's region: the [131072, 2048] array it writes is `q` of the [131072, 2048] array it reads, element by
  element.

  The grid has 128 points. At point `t` the input block and the output block are both rows
  `1024·t … 1024·t + 1023`, all 2048 columns, of their arrays. The body loads the whole input block, computes
  `select (x > 0) x (c · x)` on it elementwise — which is `q` at every element — and stores the whole block. So what
  point `t` writes back is block `t` of the one array `i ↦ q (input i)`, and since row `r` lies in the block of point
  `r / 1024`, the 128 blocks cover the output array: after the region it is that array.
-/
import proofs.«163999_j22359599743361_2_alg».proof.Proof.Gen.KernelIdeal.Frame
import proofs.«163999_j22359599743361_2_alg».proof.Proof.Rectifier
import Idealize.ShloMosaic.Lib.Pipeline.Value

set_option maxRecDepth 16384

noncomputable section

namespace Cert.KernelIdeal.Blocks

open Idealize.ShloMosaic Idealize.ShloMosaic.TcCoe Idealize.SL.Sem Idealize.ShloMosaic.Pipeline
open Cert.KernelIdeal Cert.KernelIdeal.Gen Cert.Rectifier

variable {F : FTy → Type} [FloatOps F]
variable (m : (ℓ : Loc nD τ sig) → Buf (Elt F) ℓ)

/-- The output array of the region as a function of its input array: `q` at every element. -/
def mapped (x : S131072x2048.Idx → F .f32) : S131072x2048.Idx → F .f32 := fun i => q (x i)

/-- The body's stored value is `q` of the loaded block, element by element (the block's cast to its own shape is the
    identity). -/
theorem stored_eq (v0 : Vec F S1024x2048 .f32) : k0_pay1 v0 = fun j => q (v0 j) := by
  unfold k0_pay1
  simp only [shapeCast_self]
  rfl

theorem origin : (![0, 0] : Fin 2 → Nat) = fun _ => 0 := funext fun a => by fin_cases a <;> rfl

/-- At every grid point the input and the output window sit at the same block: block row `t`, block column 0. -/
theorem block_index : ∀ t : Fin cfg0.N, win0_0.index t (0 : Fin 2) = win0_1.index t (0 : Fin 2)
    ∧ win0_0.index t (1 : Fin 2) = win0_1.index t (1 : Fin 2)
    ∧ win0_1.index t (1 : Fin 2) = 0 :=
  (by decide +kernel : ∀ t : Fin grid0.N, _)

/-- Every block row `0 … 127` is the output block of some grid point. -/
theorem block_onto : ∀ p : Fin 128, ∃ t : Fin cfg0.N, win0_1.index t = ![p.val, 0] :=
  (by decide +kernel : ∀ p : Fin 128, ∃ t : Fin grid0.N, win0_1.index t = ![p.val, 0])

/-- What point `t` writes back is block `t` of `mapped` of the input array as the region finds it: the input block is
    read at the very positions the output block is written to. -/
theorem written_eq (c : Dev nD) (t : Fin cfg0.N) :
    (dats m 0 c).flushed 1 t = ((cfg0.win 1).blk t).view.read (Elt F) (mapped (V m c main_v0)) := by
  show (cfg0.win 1).cut (grid0.coords t) ((dats m 0 c).after 1 t) = _
  rw [after0_1]
  unfold out0_1
  rw [View.canon_unit_zero origin]
  simp only [View.ld_unit_zero (S := S1024x2048) origin]
  rw [stored_eq]
  obtain ⟨e0, e1, -⟩ := block_index t
  funext j
  show q (V m c main_v0 (((cfg0.win 0).blk t).view.emb j)) = q (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 1024 + 1 * (j 0).val = win0_1.index t (0 : Fin 2) * 1024 + 1 * (j 0).val; omega
    | ⟨1, _⟩ => show win0_0.index t (1 : Fin 2) * 2048 + 1 * (j 1).val = win0_1.index t (1 : Fin 2) * 2048 + 1 * (j 1).val; omega
  rw [h0]

/-- An index of the output array is in point `t`'s block iff each coordinate is in the block's range on its axis. -/
theorem mem_block (t : Fin cfg0.N) (i : S131072x2048.Idx) :
    i ∈ ((cfg0.win 1).blk t).view.set ↔ ∀ a : Fin 2, win0_1.index t a * S1024x2048.size a ≤ (i a).val ∧ (i a).val < win0_1.index t a * S1024x2048.size a + S1024x2048.size a := by
  show i ∈ ((View.whole main_v1).slice (win0_1.rect t)).set ↔ _
  rw [View.set_slice_whole, Rect.mem_set_unit]
  exact Iff.rfl

/-- Every index of the output array lies in the block of some grid point: row `r` in the block of block row
    `r / 1024`. -/
theorem covered (i : S131072x2048.Idx) :
    ∃ t : Fin cfg0.N, (cfg0.win 1).flush t = true ∧ i ∈ ((cfg0.win 1).blk t).view.set := by
  have hi0 : (i 0).val < 131072 := (i 0).isLt
  have hi1 : (i 1).val < 2048 := (i 1).isLt
  obtain ⟨t, ht⟩ := block_onto ⟨(i 0).val / 1024, by omega⟩
  have q0 : win0_1.index t (0 : Fin 2) = (i 0).val / 1024 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 2048 ≤ (i 1).val ∧ (i 1).val < win0_1.index t (1 : Fin 2) * 2048 + 2048; omega

/-- The output array after the region is `mapped` of the input array as the region finds it. -/
theorem region_result (c : Dev nD) : (dats m 0 c).arrAt 1 cfg0.N = mapped (V m c main_v0) :=
  (dats m 0 c).arrAt_eq_of_cover 1 (mapped (V m c main_v0)) (fun t _ => written_eq m c t) covered

end Cert.KernelIdeal.Blocks

end
-- ==== Proof.LibPointwiseReshape.lean ====
/-
  A re-layout there and back around a pointwise map.

  A reshape only renames positions: element `j` of the reshaped array is the element of the operand with the same
  row-major position. So applying a function `f` to every element commutes with a reshape, and a reshape to another
  shape followed by the reshape back is the identity. Together: reshaping `x`, applying `f` elementwise, and reshaping
  back is applying `f` elementwise to `x`.
-/
import Idealize.ShloMosaic.Lib.Pipeline.Value

namespace Cert.LibPointwiseReshape

open Idealize.ShloMosaic

variable {α β : Type}

/-- A pointwise map commutes with a reshape: both read the operand at the same row-major position. -/
theorem shapeCast_map {s t : Shape} (f : α → β) (x : s.Idx → α) (h : s.ShapeCasts t) :
    shapeCast t (fun i => f (x i)) h = fun j => f (shapeCast t x h j) := rfl

/-- Reshape `x` from `s` to `t`, apply `f` to every element, reshape back to `s`: the result is `f` applied to every
    element of `x`. -/
theorem shapeCast_map_shapeCast {s t : Shape} (f : α → β) (x : s.Idx → α) (h : s.ShapeCasts t) (h' : t.ShapeCasts s) :
    shapeCast s (fun i => f (shapeCast t x h i)) h' = fun j => f (x j) := by
  rw [shapeCast_map f (shapeCast t x h) h', shapeCast_shapeCast]

end Cert.LibPointwiseReshape
-- ==== Proof.KernelRun.lean ====
/-
  The kernel's whole program: its result is `q` of its argument, element by element.

  The program reshapes its [32, 4096, 2048] argument to [131072, 2048] (merging the two leading axes), runs the
  region — whose output array is `q` at every element of that reshaped array —, and reshapes the region's output back
  to [32, 4096, 2048]. A reshape only renames positions and `q` acts element by element, so the two reshapes cancel
  around it: the result at `(b, s, d)` is `q` of the argument at `(b, s, d)`.
-/
import proofs.«163999_j22359599743361_2_alg».proof.Proof.KernelBlocks
import proofs.«163999_j22359599743361_2_alg».proof.Proof.LibPointwiseReshape

noncomputable section

namespace Cert.KernelIdeal.WholeRun

open Idealize.ShloMosaic Idealize.ShloMosaic.TcCoe Idealize.SL.Sem Idealize.ShloMosaic.Pipeline
open Cert.KernelIdeal Cert.KernelIdeal.Gen Cert.KernelIdeal.Blocks Cert.Rectifier

variable {F : FTy → Type} [FloatOps F]
variable (m : (ℓ : Loc nD τ sig) → Buf (Elt F) ℓ) (ρ : Dev nD → PrngReg)

/-- The region's input array, as the region finds it, is the argument reshaped to [131072, 2048]. -/
theorem region_input (c : Dev nD) :
    (V m c main_v0 : S131072x2048.Idx → F .f32)
      = shapeCast S131072x2048 (m ((c : Thread nD τ).loc main_arg0)) shapeCasts_S32x4096x2048_S131072x2048 := by
  show StableHlo.after hostOps0 (fun b => m (c, b)) (Proc.devRef .tc main_v0) = _
  after_results
  rfl

/-- The program's result is the region's output array reshaped to [32, 4096, 2048]. -/
theorem result_reshaped (c : Dev nD) :
    (Pipeline.afterTail₀ cfgs (dats m) 0 (V0 m) [hostOps1] c main_v2 : S32x4096x2048.Idx → F .f32)
      = shapeCast S32x4096x2048 ((dats m 0 c).arrAt 1 cfg0.N) shapeCasts_S131072x2048_S32x4096x2048 := by
  unfold Pipeline.afterTail₀
  show StableHlo.after hostOps1 _ (Proc.devRef .tc main_v2) = _
  after_results
  rw [Pipeline.withArrays_arr spec0 launch0.win.arr_inj c _ _ 1]
  rfl

/-- The program's result is `q` of the argument, element by element: the two reshapes cancel around the pointwise
    map. -/
theorem result_eq (c : Dev nD) :
    (Pipeline.afterTail₀ cfgs (dats m) 0 (V0 m) [hostOps1] c main_v2 : S32x4096x2048.Idx → F .f32)
      = fun i => q (m ((c : Thread nD τ).loc main_arg0) i) := by
  rw [result_reshaped, region_result, region_input]
  exact Cert.LibPointwiseReshape.shapeCast_map_shapeCast q _ _ _

/-- Every weakly fair execution of the kernel's program terminates with its result at `q` of the argument, element by
    element, and the argument unchanged. -/
theorem run : θ_run defs (onTc (τ := τ) (main (F := F))) ⟨m, fun _ => 0, ρ⟩ fun r => ∀ c : Dev nD,
      r.2.mem ((c.tc : Thread nD τ).loc main_v2) = (fun i => q (m ((c.tc : Thread nD τ).loc main_arg0) i))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.WholeRun

end
-- ==== Proof.ReferenceValue.lean ====
/-
  The reference's result is `q` of its argument, element by element.

  The reference compares the argument with a broadcast zero, multiplies a broadcast constant (the word 0xBFFEB852)
  by the argument, and selects between the argument and the product. A broadcast of a rank-0 constant reads that
  constant at every index, so at index `i` the result is `select (x i > 0) (x i) (c · x i)`, which is `q (x i)`.
-/
import proofs.«163999_j22359599743361_2_alg».proof.Proof.Gen.ReferenceIdeal.Read
import proofs.«163999_j22359599743361_2_alg».proof.Proof.Rectifier

noncomputable section

namespace Cert.ReferenceIdeal.RefValue

open Idealize.ShloMosaic Idealize.ShloMosaic.TcCoe Idealize.SL.Sem
open Cert.ReferenceIdeal Cert.ReferenceIdeal.Read Cert.Rectifier

variable {F : FTy → Type} [FloatOps F]

/-- The reference's last stage at index `i` is `q` of the argument at `i`. -/
theorem result_eq (x0 : S32x4096x2048.Idx → F .f32) :
    val_main_v4 (F := F) x0 = fun i => q (x0 i) := by
  funext i
  rw [val_main_v4_apply, val_main_v1_apply, val_main_v3_apply, val_main_v0_apply, val_main_v2_apply,
    val_main_cst_apply, val_main_cst_0_apply]
  rfl

end Cert.ReferenceIdeal.RefValue

end
-- ==== Proof.lean ====
/-
  The kernel computes, for every element `x` of a [32, 4096, 2048] array, `x` if `x > 0` and `c · x` otherwise, `c` the
  single-precision constant -1.99; so does the reference, with the same constant word. The kernel first merges the two
  leading axes ([131072, 2048]), processes 128 blocks of 1024 full rows, and splits the axes again; the reference
  works on the rank-3 array directly.

  Both results are the same function of the argument, element by element (`Cert.Rectifier.q` at every index): on the
  kernel's side the blocks tile the merged array and the two reshapes cancel around an elementwise map
  (Proof/KernelBlocks.lean, Proof/KernelRun.lean); on the reference's side the broadcasts read their constant at every
  index (Proof/ReferenceValue.lean). The equality uses no arithmetic law, so the precondition (finite inputs) is never
  opened. The idealization rewrote nothing, so `preserves` has nothing to state.
-/
import proofs.«163999_j22359599743361_2_alg».proof.Defs
import proofs.«163999_j22359599743361_2_alg».proof.Proof.Gen.Kernel
import proofs.«163999_j22359599743361_2_alg».proof.Proof.Gen.Kernel.Skeleton
import proofs.«163999_j22359599743361_2_alg».proof.Proof.Gen.Kernel.Launch
import proofs.«163999_j22359599743361_2_alg».proof.Proof.Gen.Kernel.Points
import proofs.«163999_j22359599743361_2_alg».proof.Proof.Gen.Kernel.Frame
import proofs.«163999_j22359599743361_2_alg».proof.Proof.Gen.KernelIdeal
import proofs.«163999_j22359599743361_2_alg».proof.Proof.Gen.KernelIdeal.Skeleton
import proofs.«163999_j22359599743361_2_alg».proof.Proof.Gen.KernelIdeal.Launch
import proofs.«163999_j22359599743361_2_alg».proof.Proof.Gen.KernelIdeal.Points
import proofs.«163999_j22359599743361_2_alg».proof.Proof.Gen.KernelIdeal.Frame
import proofs.«163999_j22359599743361_2_alg».proof.Proof.Gen.ReferenceIdeal
import proofs.«163999_j22359599743361_2_alg».proof.Proof.Gen.ReferenceIdeal.Run
import proofs.«163999_j22359599743361_2_alg».proof.Proof.Gen.ReferenceIdeal.Read
import proofs.«163999_j22359599743361_2_alg».proof.Proof.Gen.Pre_finite_inputs
import proofs.«163999_j22359599743361_2_alg».proof.Proof.KernelRun
import proofs.«163999_j22359599743361_2_alg».proof.Proof.ReferenceValue
import Idealize.ShloMosaic.Adequacy
import Idealize.ShloMosaic.Init

noncomputable section

namespace Cert.Proof

open Idealize.ShloMosaic Idealize.SL.Sem

namespace Claims

/-- The word-level kernel terminates without a fault and leaves its argument as it was. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of array operations: it terminates, and its argument is written by none. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten when the kernel was read over the extended reals. -/
theorem preserves : Cert.preserves_Kernel_KernelIdeal := trivial

/-- From memories that agree on the argument, both programs end with the array `i ↦ q (argument i)`. -/
theorem algebraic : Cert.algebraic_KernelIdeal_ReferenceIdeal := by
  intro m ρ m' ρ' _ hagree
  refine ⟨_, Cert.KernelIdeal.WholeRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq, hagree c]
  rfl

end Claims

theorem claim : Cert.Claim := ⟨Cert.Kernel.Gen.facts, Cert.KernelIdeal.Gen.facts, Cert.ReferenceIdeal.Gen.facts, Cert.Pre_finite_inputs.Gen.facts,
  Claims.frame_kernel, Claims.frame_kernel_ideal, Claims.frame_reference, Claims.preserves, Claims.algebraic⟩

end Cert.Proof

end
